-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x64 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S5000x128 : Shape := ⟨2, ![5000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 62
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_cst : Ref sig .tc := ⟨.hbm, 50, rfl⟩
abbrev main_call1_v0 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.Spec.lean ====
/-
  The two-layer mean-aggregation graph network as ONE function of its nine arguments.

  Nodes carry feature rows; an edge e goes from node src e to node dst e. The in-degree of node v is the number of
  edges into it, and inv v = 1 / max (deg v) 1 where deg v > 0, else 0. One layer sends a feature array h to

      h · W_self + (inv ⊙ Σ_{e : dst e = v} h[src e]) · W_neigh + b,

  row by row (a negative source index is wrapped once by the node count before the gather, as the indexing of
  `h[src]` does). The network is the first layer followed by max(·, 0), then the second layer on that hidden array.
  Every piece is written with the host's operations exactly as both programs spell them, so that each program's
  result is this function by unfolding; the two matrix products of a layer, the bias and the clamp are then read at
  an index, on the extended reals, as plain sums (LibDot).
-/
import proofs.«161113_j16552803959273_1_alg».proof.Proof.Gen.ReferenceIdeal
import Idealize.ShloMosaic.Lib.Pipeline.Value
import proofs.«161113_j16552803959273_1_alg».proof.Proof.LibDot

noncomputable section

namespace Cert.Sage

open Idealize.ShloMosaic Idealize.ShloMosaic.ValueIdx Cert.ReferenceIdeal Cert.ReferenceIdeal.Gen

variable {F : FTy → Type} [FloatOps F]

/-- The edge sources as a column of gather indices, a negative one wrapped once by the node count. -/
def srcCol (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The in-degree of every node: ones scattered by destination into zeros. -/
def deg (dst : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- 1 / max (deg v) 1 where the in-degree is positive, 0 elsewhere. -/
def invDeg (dst : (⟨S1600000, .i32⟩ : BufTy).Contents (Elt F)) : (⟨S100000, .f32⟩ : BufTy).Contents (Elt F) :=
  select (cmpf (F := F) .ogt (deg dst) (broadcastInDim S100000 ![] bcast_S_S100000 (constant S_ .f32 0x00000000#32)))
    (Host.divf (broadcastInDim S100000 ![] bcast_S_S100000 (constant S_ .f32 0x3F800000#32))
      (maximumf (deg dst) (broadcastInDim S100000 ![] bcast_S_S100000 (constant S_ .f32 0x3F800000#32))))
    (broadcastInDim S100000 ![] bcast_S_S100000 (constant S_ .f32 0x00000000#32))

/-- The rows of `h` gathered along the edges, summed at each edge's destination, scaled row by row by `inv`. -/
def scaledAgg (h : (⟨S100000x128, .f32⟩ : BufTy).Contents (Elt F)) (src dst : (⟨S1600000, .i32⟩ : BufTy).Contents (Elt F))
    (inv : (⟨S100000, .f32⟩ : BufTy).Contents (Elt F)) : (⟨S100000x128, .f32⟩ : BufTy).Contents (Elt F) :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h (srcCol src)))
    (broadcastInDim S100000x128 ![0, 1] bcast_S100000x1_S100000x128_0_1
      (broadcastInDim S100000x1 ![0] bcast_S100000_S100000x1_0 inv))

/-- The mean over in-neighbours: the scaled aggregate at the in-degree's own normaliser. -/
def meanAgg (h : (⟨S100000x128, .f32⟩ : BufTy).Contents (Elt F)) (src dst : (⟨S1600000, .i32⟩ : BufTy).Contents (Elt F)) :
    (⟨S100000x128, .f32⟩ : BufTy).Contents (Elt F) :=
  scaledAgg h src dst (invDeg dst)

/-- The first layer's dense part, clamped below at zero: max (h · ws + a · wn + b, 0). -/
def hidden (h a : (⟨S100000x128, .f32⟩ : BufTy).Contents (Elt F)) (ws wn : (⟨S128x128, .f32⟩ : BufTy).Contents (Elt F))
    (b : (⟨S128, .f32⟩ : BufTy).Contents (Elt F)) : (⟨S100000x128, .f32⟩ : BufTy).Contents (Elt F) :=
  maximumf
    (addf
      (addf (Host.dotGeneral dot_S100000x128_S128x128_S100000x128_1_0_0_1_n_n none h ws)
        (Host.dotGeneral dot_S100000x128_S128x128_S100000x128_1_0_0_1_n_n none a wn))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The second layer's dense part: h · ws + a · wn + b. -/
def output (h a : (⟨S100000x128, .f32⟩ : BufTy).Contents (Elt F)) (ws wn : (⟨S128x64, .f32⟩ : BufTy).Contents (Elt F))
    (b : (⟨S64, .f32⟩ : BufTy).Contents (Elt F)) : (⟨S100000x64, .f32⟩ : BufTy).Contents (Elt F) :=
  addf
    (addf (Host.dotGeneral dot_S100000x128_S128x64_S100000x64_1_0_0_1_n_n none h ws)
      (Host.dotGeneral dot_S100000x128_S128x64_S100000x64_1_0_0_1_n_n none a wn))
    (broadcastInDim S100000x64 ![0, 1] bcast_S1x64_S100000x64_0_1 (broadcastInDim S1x64 ![1] bcast_S64_S1x64_1 b))

/-- The whole network: the hidden array of the first layer, then the second layer on it. -/
def net (x : (⟨S100000x128, .f32⟩ : BufTy).Contents (Elt F)) (src dst : (⟨S1600000, .i32⟩ : BufTy).Contents (Elt F))
    (w1s w1n : (⟨S128x128, .f32⟩ : BufTy).Contents (Elt F)) (b1 : (⟨S128, .f32⟩ : BufTy).Contents (Elt F))
    (w2s w2n : (⟨S128x64, .f32⟩ : BufTy).Contents (Elt F)) (b2 : (⟨S64, .f32⟩ : BufTy).Contents (Elt F)) :
    (⟨S100000x64, .f32⟩ : BufTy).Contents (Elt F) :=
  output (hidden x (meanAgg x src dst) w1s w1n b1) (meanAgg (hidden x (meanAgg x src dst) w1s w1n b1) src dst) w2s w2n b2

/-! ## The dense parts at an index, on the extended reals -/

/-- A bias vector broadcast along the rows reads, at (r, q), its entry q. -/
theorem biasRows128_apply (b : (⟨S128, .f32⟩ : BufTy).Contents (Elt Ideal)) (r : Fin 100000) (q : Fin 128) :
    broadcastInDim S100000x128 ![0, 1] bcast_S1x128_S100000x128_0_1 (broadcastInDim S1x128 ![1] bcast_S128_S1x128_1 b) (ix2 r q)
      = b (ix1 q) := by
  rw [broadcastInDim_apply _ bcast_S1x128_S100000x128_0_1 _ (ix2 r q) (ix2 (0 : Fin 1) q)
      (fun a => match a with | ⟨0, _⟩ => rfl | ⟨1, _⟩ => rfl),
    broadcastInDim_apply _ bcast_S128_S1x128_1 b (ix2 (0 : Fin 1) q) (ix1 q) (fun a => match a with | ⟨0, _⟩ => rfl)]

theorem biasRows64_apply (b : (⟨S64, .f32⟩ : BufTy).Contents (Elt Ideal)) (r : Fin 100000) (q : Fin 64) :
    broadcastInDim S100000x64 ![0, 1] bcast_S1x64_S100000x64_0_1 (broadcastInDim S1x64 ![1] bcast_S64_S1x64_1 b) (ix2 r q)
      = b (ix1 q) := by
  rw [broadcastInDim_apply _ bcast_S1x64_S100000x64_0_1 _ (ix2 r q) (ix2 (0 : Fin 1) q)
      (fun a => match a with | ⟨0, _⟩ => rfl | ⟨1, _⟩ => rfl),
    broadcastInDim_apply _ bcast_S64_S1x64_1 b (ix2 (0 : Fin 1) q) (ix1 q) (fun a => match a with | ⟨0, _⟩ => rfl)]

/-- The zero the hidden array is clamped at, spread over the array, reads the zero word everywhere. -/
theorem zeros128_apply (i : S100000x128.Idx) :
    broadcastInDim S100000x128 ![] bcast_S_S100000x128 (constant (F := Ideal) S_ .f32 0x00000000#32) i
      = Ideal.ofBits .f32 0x00000000#32 := by
  rw [broadcastInDim_apply _ bcast_S_S100000x128 _ i ix0 (fun a => a.elim0)]
  rfl

/-- Row r, column q of the hidden array: the two contractions over the 128 input features, the bias, the clamp. -/
theorem hidden_apply (h a : (⟨S100000x128, .f32⟩ : BufTy).Contents (Elt Ideal)) (ws wn : (⟨S128x128, .f32⟩ : BufTy).Contents (Elt Ideal))
    (b : (⟨S128, .f32⟩ : BufTy).Contents (Elt Ideal)) (r : Fin 100000) (q : Fin 128) :
    hidden (F := Ideal) h a ws wn b (ix2 r q)
      = max ((∑ k : Fin 128, h (ix2 r k) * ws (ix2 k q)) + (∑ k : Fin 128, a (ix2 r k) * wn (ix2 k q)) + b (ix1 q))
          (Ideal.ofBits .f32 0x00000000#32) := by
  unfold hidden
  rw [maximumf_apply, addf_apply, addf_apply, zeros128_apply, biasRows128_apply]
  simp only [Host.dotGeneral]
  rw [Cert.LibDot.dotGeneral_plain_apply _ rfl rfl rfl rfl rfl rfl, Cert.LibDot.dotGeneral_plain_apply _ rfl rfl rfl rfl rfl rfl]

/-- Row r, column q of the output array: the two contractions over the 128 hidden features and the bias. -/
theorem output_apply (h a : (⟨S100000x128, .f32⟩ : BufTy).Contents (Elt Ideal)) (ws wn : (⟨S128x64, .f32⟩ : BufTy).Contents (Elt Ideal))
    (b : (⟨S64, .f32⟩ : BufTy).Contents (Elt Ideal)) (r : Fin 100000) (q : Fin 64) :
    output (F := Ideal) h a ws wn b (ix2 r q)
      = (∑ k : Fin 128, h (ix2 r k) * ws (ix2 k q)) + (∑ k : Fin 128, a (ix2 r k) * wn (ix2 k q)) + b (ix1 q) := by
  unfold output
  rw [addf_apply, addf_apply, biasRows64_apply]
  simp only [Host.dotGeneral]
  rw [Cert.LibDot.dotGeneral_plain_apply _ rfl rfl rfl rfl rfl rfl, Cert.LibDot.dotGeneral_plain_apply _ rfl rfl rfl rfl rfl rfl]

end Cert.Sage

end
-- ==== Proof.RefValue.lean ====
/-
  The reference's result is the network.

  The reference computes, on the host, the in-degree normaliser, the mean over in-neighbours of the input features,
  the first dense layer and its clamp at zero, the mean over in-neighbours of that hidden array, and the second dense
  layer. Its run ends with the result buffer at the composition of exactly these operations applied to the
  arguments; unfolding the names the network is written with gives the same composition, term for term (the
  hidden array occurs twice in it, as the second layer's own input and under its aggregation).
-/
import proofs.«161113_j16552803959273_1_alg».proof.Proof.RefRun
import proofs.«161113_j16552803959273_1_alg».proof.Proof.Spec

set_option maxRecDepth 8192

noncomputable section

namespace Cert.ReferenceIdeal.RefValue

open Cert.ReferenceIdeal Cert.ReferenceIdeal.Gen Idealize.ShloMosaic Idealize.ShloMosaic.TcCoe Idealize.SL.Sem

/-- The composed term of the reference's run is the network of its nine arguments. -/
theorem result_eq (m : (ℓ : Loc nD τ sig) → Buf (Elt Ideal) ℓ) (c : Dev nD) :
    Cert.ReferenceIdeal.ValueP.res_main_v49 (F := Ideal) m c
      = Cert.Sage.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.ValueP.res_main_v49
  rfl

end Cert.ReferenceIdeal.RefValue

end
-- ==== Proof.Payload.lean ====
/-
  What one grid point of each dense kernel stores, entry by entry, on the extended reals.

  The first kernel's block holds 5000 node rows. From the block x0 of self features, the block x1 of aggregated
  neighbour features, the two 128 × 128 weight matrices x2, x3 and the bias x4, the stored value at row p, column q is

      max (Σ_k x0 (p, k) · x2 (k, q) + Σ_k x1 (p, k) · x3 (k, q) + x4 q, 0);

  the second kernel stores the same expression over 128 × 64 weights, without the clamp. A change of float format is
  the identity on the extended reals, a matrix product into the zero accumulator is the plain sum over the
  contracted coordinate (LibDot), a cast of a block to its own shape changes nothing, and the bias row, cast to a
  1 × n row and spread over the block's rows, reads its entry q.
-/
import proofs.«161113_j16552803959273_1_alg».proof.Proof.Gen.KernelIdeal.Skeleton
import proofs.«161113_j16552803959273_1_alg».proof.Proof.LibDot
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx

/-- The bias, cast to a 1 × 128 row and spread over the 5000 rows of a block, reads its entry q at (p, q). -/
theorem biasBlock128_apply (x4 : Vec Ideal S128 .f32) (p : Fin 5000) (q : Fin 128) :
    broadcastTo S5000x128 (shapeCast S1x128 x4 shapeCasts_S128_S1x128) broadcasts_S1x128_S5000x128 (ix2 p q) = x4 (ix1 q) := by
  rw [broadcastTo_apply _ broadcasts_S1x128_S5000x128 (ix2 p q) (ix2 (0 : Fin 1) q)
      (fun a => match a with | ⟨0, _⟩ => rfl | ⟨1, _⟩ => rfl)]
  exact shapeCast_a_1a_apply x4 shapeCasts_S128_S1x128 (0 : Fin 1) q

/-- The bias, cast to a 1 × 64 row and spread over the 5000 rows of a block, reads its entry q at (p, q). -/
theorem biasBlock64_apply (x4 : Vec Ideal S64 .f32) (p : Fin 5000) (q : Fin 64) :
    broadcastTo S5000x64 (shapeCast S1x64 x4 shapeCasts_S64_S1x64) broadcasts_S1x64_S5000x64 (ix2 p q) = x4 (ix1 q) := by
  rw [broadcastTo_apply _ broadcasts_S1x64_S5000x64 (ix2 p q) (ix2 (0 : Fin 1) q)
      (fun a => match a with | ⟨0, _⟩ => rfl | ⟨1, _⟩ => rfl)]
  exact shapeCast_a_1a_apply x4 shapeCasts_S64_S1x64 (0 : Fin 1) q

/-- Row p, column q of what a point of the first kernel stores. -/
theorem hiddenBlock_apply (x0 x1 : Vec Ideal S5000x128 .f32) (x2 x3 : Vec Ideal S128x128 .f32) (x4 : Vec Ideal S128 .f32)
    (p : Fin 5000) (q : Fin 128) :
    k0_pay1 x0 x1 x2 x3 x4 (ix2 p q)
      = max ((∑ k : Fin 128, x0 (ix2 p k) * x2 (ix2 k q)) + (∑ k : Fin 128, x1 (ix2 p k) * x3 (ix2 k q)) + x4 (ix1 q))
          (Ideal.ofBits .f32 0x00000000#32) := by
  unfold k0_pay1
  rw [maximumf_apply, addf_apply, addf_apply, biasBlock128_apply]
  simp only [matmul]
  rw [Cert.LibDot.matmul_zero_plain_apply _ rfl rfl rfl rfl rfl rfl, Cert.LibDot.matmul_zero_plain_apply _ rfl rfl rfl rfl rfl rfl,
    shapeCast_self]
  rfl

/-- Row p, column q of what a point of the second kernel stores. -/
theorem outputBlock_apply (x0 x1 : Vec Ideal S5000x128 .f32) (x2 x3 : Vec Ideal S128x64 .f32) (x4 : Vec Ideal S64 .f32)
    (p : Fin 5000) (q : Fin 64) :
    k1_pay1 x0 x1 x2 x3 x4 (ix2 p q)
      = (∑ k : Fin 128, x0 (ix2 p k) * x2 (ix2 k q)) + (∑ k : Fin 128, x1 (ix2 p k) * x3 (ix2 k q)) + x4 (ix1 q) := by
  unfold k1_pay1
  rw [addf_apply, addf_apply, biasBlock64_apply]
  simp only [matmul]
  rw [Cert.LibDot.matmul_zero_plain_apply _ rfl rfl rfl rfl rfl rfl, Cert.LibDot.matmul_zero_plain_apply _ rfl rfl rfl rfl rfl rfl,
    shapeCast_self, shapeCast_self]
  rfl

end Cert.KernelIdeal.Pay

end
-- ==== Proof.Blocks.lean ====
/-
  From blocks to arrays: what each dense kernel leaves in its result array.

  Each kernel runs over twenty grid points; point t stages rows 5000 t … 5000 t + 4999 of its two feature arrays,
  the whole of its two weight matrices and of its bias, and writes rows 5000 t … 5000 t + 4999 of its result back.
  The stored entry at row p of the block (Payload) and the entry at row 5000 t + p of the dense layer applied to the
  whole arrays (Spec) are the same two sums over the 128 contracted features plus the same bias entry, because a
  block's row p is the array's row 5000 t + p and the weights and bias are read whole. The twenty blocks tile the
  100000 rows, so the result array ends as the dense layer of the arrays the region was entered with — stated for
  ANY contents V at the region's entry, so that the run can instantiate it at each region's own entry contents.
-/
import proofs.«161113_j16552803959273_1_alg».proof.Proof.Gen.KernelIdeal.Frame
import proofs.«161113_j16552803959273_1_alg».proof.Proof.Spec
import proofs.«161113_j16552803959273_1_alg».proof.Proof.Payload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-! ## Region 0: the hidden array from its twenty row blocks -/

/-- The block indices of region 0's windows at every grid point: the two feature windows and the result window
    are at row block t, the weights and the bias at their one block. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- A feature window's block at point t is rows 5000 t … 5000 t + 4999 of its array. -/
theorem rows0_0_apply (c : Dev nD) (t : Fin cfg0.N) (p : Fin 5000) (k : Fin 128) (r : Fin 100000)
    (hr : r.val = 5000 * t.val + p.val) :
    (iblk0 V c 0 t : Vec Ideal S5000x128 .f32) (ix2 p k) = (V c main_arg0 : S100000x128.Idx → Elt Ideal .f32) (ix2 r k) := by
  obtain ⟨e0, e1, -⟩ := index_facts0 t
  unfold iblk0
  rw [View.read_apply]
  show V c main_arg0 _ = V c main_arg0 _
  congr 1
  funext a
  apply Fin.ext
  match a with
  | ⟨0, _⟩ => show win0_0.index t 0 * 5000 + 1 * p.val = r.val; rw [e0, hr]; omega
  | ⟨1, _⟩ => show win0_0.index t 1 * 128 + 1 * k.val = k.val; rw [e1]; omega

theorem rows0_1_apply (c : Dev nD) (t : Fin cfg0.N) (p : Fin 5000) (k : Fin 128) (r : Fin 100000)
    (hr : r.val = 5000 * t.val + p.val) :
    (iblk0 V c 1 t : Vec Ideal S5000x128 .f32) (ix2 p k) = (V c main_v23 : S100000x128.Idx → Elt Ideal .f32) (ix2 r k) := by
  obtain ⟨-, -, e0, e1, -⟩ := index_facts0 t
  unfold iblk0
  rw [View.read_apply]
  show V c main_v23 _ = V c main_v23 _
  congr 1
  funext a
  apply Fin.ext
  match a with
  | ⟨0, _⟩ => show win0_1.index t 0 * 5000 + 1 * p.val = r.val; rw [e0, hr]; omega
  | ⟨1, _⟩ => show win0_1.index t 1 * 128 + 1 * k.val = k.val; rw [e1]; omega

/-- A weight window's one block is its whole matrix. -/
theorem weights0_2_apply (c : Dev nD) (t : Fin cfg0.N) (k : Fin 128) (q : Fin 128) :
    (iblk0 V c 2 t : Vec Ideal S128x128 .f32) (ix2 k q) = (V c main_arg3 : S128x128.Idx → Elt Ideal .f32) (ix2 k q) := by
  obtain ⟨-, -, -, -, e0, e1, -⟩ := index_facts0 t
  unfold iblk0
  rw [View.read_apply]
  show V c main_arg3 _ = V c main_arg3 _
  congr 1
  funext a
  apply Fin.ext
  match a with
  | ⟨0, _⟩ => show win0_2.index t 0 * 128 + 1 * k.val = k.val; rw [e0]; omega
  | ⟨1, _⟩ => show win0_2.index t 1 * 128 + 1 * q.val = q.val; rw [e1]; omega

theorem weights0_3_apply (c : Dev nD) (t : Fin cfg0.N) (k : Fin 128) (q : Fin 128) :
    (iblk0 V c 3 t : Vec Ideal S128x128 .f32) (ix2 k q) = (V c main_arg4 : S128x128.Idx → Elt Ideal .f32) (ix2 k q) := by
  obtain ⟨-, -, -, -, -, -, e0, e1, -⟩ := index_facts0 t
  unfold iblk0
  rw [View.read_apply]
  show V c main_arg4 _ = V c main_arg4 _
  congr 1
  funext a
  apply Fin.ext
  match a with
  | ⟨0, _⟩ => show win0_3.index t 0 * 128 + 1 * k.val = k.val; rw [e0]; omega
  | ⟨1, _⟩ => show win0_3.index t 1 * 128 + 1 * q.val = q.val; rw [e1]; omega

/-- The bias window's one block is the whole bias. -/
theorem bias0_apply (c : Dev nD) (t : Fin cfg0.N) (q : Fin 128) :
    (iblk0 V c 4 t : Vec Ideal S128 .f32) (ix1 q) = (V c main_arg5 : S128.Idx → Elt Ideal .f32) (ix1 q) := by
  obtain ⟨-, -, -, -, -, -, -, -, e0, -⟩ := index_facts0 t
  unfold iblk0
  rw [View.read_apply]
  show V c main_arg5 _ = V c main_arg5 _
  congr 1
  funext a
  apply Fin.ext
  match a with
  | ⟨0, _⟩ => show win0_4.index t 0 * 128 + 1 * q.val = q.val; rw [e0]; omega

/-- What point t writes back is block t of the hidden array of the arrays the region finds: at row p of the
    block, the stored entry and the array's entry at row 5000 t + p are the same two contractions plus the bias. -/
theorem flushed0 (c : Dev nD) (t : Fin cfg0.N) :
    (dat0 V c).flushed 5 t = ((cfg0.win 5).blk t).view.read (Elt Ideal)
      (Cert.Sage.hidden (F := Ideal) (V c main_arg0) (V c main_v23) (V c main_arg3) (V c main_arg4) (V c main_arg5)) := by
  show (cfg0.win 5).cut (grid0.coords t) ((dat0 V c).after 5 t) = _
  rw [after0_5]
  unfold out0_5
  rw [View.canon_unit_zero origin2]
  simp only [View.ld_unit_zero (S := S5000x128) origin2, View.ld_unit_zero (S := S128x128) origin2,
    View.ld_unit_zero (S := S128) origin1]
  obtain ⟨-, -, -, -, -, -, -, -, -, e0, e1⟩ := index_facts0 t
  funext j
  obtain ⟨p, q, rfl⟩ : ∃ (p : Fin 5000) (q : Fin 128), j = ix2 p q := ⟨j 0, j 1, eq_ix2 j⟩
  have hlt : 5000 * t.val + p.val < 100000 := by
    have h1 := t.isLt; have h2 : cfg0.N = 20 := N_0; have h3 := p.isLt; omega
  have hemb : ((cfg0.win 5).blk t).view.emb (ix2 p q) = (ix2 (⟨5000 * t.val + p.val, hlt⟩ : Fin 100000) q : S100000x128.Idx) := by
    funext a
    apply Fin.ext
    match a with
    | ⟨0, _⟩ => show win0_5.index t 0 * 5000 + 1 * p.val = 5000 * t.val + p.val; rw [e0]; omega
    | ⟨1, _⟩ => show win0_5.index t 1 * 128 + 1 * q.val = q.val; rw [e1]; omega
  show k0_pay1 (iblk0 V c 0 t) (iblk0 V c 1 t) (iblk0 V c 2 t) (iblk0 V c 3 t) (iblk0 V c 4 t) (ix2 p q)
    = Cert.Sage.hidden (F := Ideal) (V c main_arg0) (V c main_v23) (V c main_arg3) (V c main_arg4) (V c main_arg5) (((cfg0.win 5).blk t).view.emb (ix2 p q))
  rw [hemb, Cert.KernelIdeal.Pay.hiddenBlock_apply, Cert.Sage.hidden_apply]
  simp only [rows0_0_apply V c t p _ ⟨5000 * t.val + p.val, hlt⟩ rfl, rows0_1_apply V c t p _ ⟨5000 * t.val + p.val, hlt⟩ rfl,
    weights0_2_apply V c t, weights0_3_apply V c t, bias0_apply V c t]

/-- An index of the result array is in point t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Every index of the result array is in some point's block: row r is in block r / 5000. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_5 _, ?_⟩
  obtain ⟨-, -, -, -, -, -, -, -, -, e0, e1⟩ := index_facts0 ⟨(i 0).val / 5000, by rw [hN]; omega⟩
  rw [mem_blk0]
  intro a
  match a with
  | ⟨0, _⟩ =>
    show win0_5.index _ (0 : Fin 2) * 5000 ≤ (i 0).val ∧ (i 0).val < win0_5.index _ (0 : Fin 2) * 5000 + 5000
    rw [e0]
    show (i 0).val / 5000 * 5000 ≤ (i 0).val ∧ (i 0).val < (i 0).val / 5000 * 5000 + 5000
    omega
  | ⟨1, _⟩ =>
    show win0_5.index _ (1 : Fin 2) * 128 ≤ (i 1).val ∧ (i 1).val < win0_5.index _ (1 : Fin 2) * 128 + 128
    rw [e1]
    omega

/-- The result array after region 0 is the hidden array of the arrays the region was entered with. -/
theorem array0 (c : Dev nD) :
    (dat0 V c).arrAt 5 cfg0.N
      = Cert.Sage.hidden (F := Ideal) (V c main_arg0) (V c main_v23) (V c main_arg3) (V c main_arg4) (V c main_arg5) :=
  (dat0 V c).arrAt_eq_of_cover 5 _ (fun t _ => flushed0 V c t) (cover0)

/-! ## Region 1: the output array from its twenty row blocks -/

/-- The block indices of region 1's windows at every grid point: the two feature windows and the result window
    are at row block t, the weights and the bias at their one block. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- A feature window's block at point t is rows 5000 t … 5000 t + 4999 of its array. -/
theorem rows1_0_apply (c : Dev nD) (t : Fin cfg1.N) (p : Fin 5000) (k : Fin 128) (r : Fin 100000)
    (hr : r.val = 5000 * t.val + p.val) :
    (iblk1 V c 0 t : Vec Ideal S5000x128 .f32) (ix2 p k) = (V c main_v24 : S100000x128.Idx → Elt Ideal .f32) (ix2 r k) := by
  obtain ⟨e0, e1, -⟩ := index_facts1 t
  unfold iblk1
  rw [View.read_apply]
  show V c main_v24 _ = V c main_v24 _
  congr 1
  funext a
  apply Fin.ext
  match a with
  | ⟨0, _⟩ => show win1_0.index t 0 * 5000 + 1 * p.val = r.val; rw [e0, hr]; omega
  | ⟨1, _⟩ => show win1_0.index t 1 * 128 + 1 * k.val = k.val; rw [e1]; omega

theorem rows1_1_apply (c : Dev nD) (t : Fin cfg1.N) (p : Fin 5000) (k : Fin 128) (r : Fin 100000)
    (hr : r.val = 5000 * t.val + p.val) :
    (iblk1 V c 1 t : Vec Ideal S5000x128 .f32) (ix2 p k) = (V c main_v37 : S100000x128.Idx → Elt Ideal .f32) (ix2 r k) := by
  obtain ⟨-, -, e0, e1, -⟩ := index_facts1 t
  unfold iblk1
  rw [View.read_apply]
  show V c main_v37 _ = V c main_v37 _
  congr 1
  funext a
  apply Fin.ext
  match a with
  | ⟨0, _⟩ => show win1_1.index t 0 * 5000 + 1 * p.val = r.val; rw [e0, hr]; omega
  | ⟨1, _⟩ => show win1_1.index t 1 * 128 + 1 * k.val = k.val; rw [e1]; omega

/-- A weight window's one block is its whole matrix. -/
theorem weights1_2_apply (c : Dev nD) (t : Fin cfg1.N) (k : Fin 128) (q : Fin 64) :
    (iblk1 V c 2 t : Vec Ideal S128x64 .f32) (ix2 k q) = (V c main_arg6 : S128x64.Idx → Elt Ideal .f32) (ix2 k q) := by
  obtain ⟨-, -, -, -, e0, e1, -⟩ := index_facts1 t
  unfold iblk1
  rw [View.read_apply]
  show V c main_arg6 _ = V c main_arg6 _
  congr 1
  funext a
  apply Fin.ext
  match a with
  | ⟨0, _⟩ => show win1_2.index t 0 * 128 + 1 * k.val = k.val; rw [e0]; omega
  | ⟨1, _⟩ => show win1_2.index t 1 * 64 + 1 * q.val = q.val; rw [e1]; omega

theorem weights1_3_apply (c : Dev nD) (t : Fin cfg1.N) (k : Fin 128) (q : Fin 64) :
    (iblk1 V c 3 t : Vec Ideal S128x64 .f32) (ix2 k q) = (V c main_arg7 : S128x64.Idx → Elt Ideal .f32) (ix2 k q) := by
  obtain ⟨-, -, -, -, -, -, e0, e1, -⟩ := index_facts1 t
  unfold iblk1
  rw [View.read_apply]
  show V c main_arg7 _ = V c main_arg7 _
  congr 1
  funext a
  apply Fin.ext
  match a with
  | ⟨0, _⟩ => show win1_3.index t 0 * 128 + 1 * k.val = k.val; rw [e0]; omega
  | ⟨1, _⟩ => show win1_3.index t 1 * 64 + 1 * q.val = q.val; rw [e1]; omega

/-- The bias window's one block is the whole bias. -/
theorem bias1_apply (c : Dev nD) (t : Fin cfg1.N) (q : Fin 64) :
    (iblk1 V c 4 t : Vec Ideal S64 .f32) (ix1 q) = (V c main_arg8 : S64.Idx → Elt Ideal .f32) (ix1 q) := by
  obtain ⟨-, -, -, -, -, -, -, -, e0, -⟩ := index_facts1 t
  unfold iblk1
  rw [View.read_apply]
  show V c main_arg8 _ = V c main_arg8 _
  congr 1
  funext a
  apply Fin.ext
  match a with
  | ⟨0, _⟩ => show win1_4.index t 0 * 64 + 1 * q.val = q.val; rw [e0]; omega

/-- What point t writes back is block t of the output array of the arrays the region finds: at row p of the
    block, the stored entry and the array's entry at row 5000 t + p are the same two contractions plus the bias. -/
theorem flushed1 (c : Dev nD) (t : Fin cfg1.N) :
    (dat1 V c).flushed 5 t = ((cfg1.win 5).blk t).view.read (Elt Ideal)
      (Cert.Sage.output (F := Ideal) (V c main_v24) (V c main_v37) (V c main_arg6) (V c main_arg7) (V c main_arg8)) := by
  show (cfg1.win 5).cut (grid1.coords t) ((dat1 V c).after 5 t) = _
  rw [after1_5]
  unfold out1_5
  rw [View.canon_unit_zero origin2]
  simp only [View.ld_unit_zero (S := S5000x128) origin2, View.ld_unit_zero (S := S128x64) origin2,
    View.ld_unit_zero (S := S64) origin1]
  obtain ⟨-, -, -, -, -, -, -, -, -, e0, e1⟩ := index_facts1 t
  funext j
  obtain ⟨p, q, rfl⟩ : ∃ (p : Fin 5000) (q : Fin 64), j = ix2 p q := ⟨j 0, j 1, eq_ix2 j⟩
  have hlt : 5000 * t.val + p.val < 100000 := by
    have h1 := t.isLt; have h2 : cfg1.N = 20 := N_1; have h3 := p.isLt; omega
  have hemb : ((cfg1.win 5).blk t).view.emb (ix2 p q) = (ix2 (⟨5000 * t.val + p.val, hlt⟩ : Fin 100000) q : S100000x64.Idx) := by
    funext a
    apply Fin.ext
    match a with
    | ⟨0, _⟩ => show win1_5.index t 0 * 5000 + 1 * p.val = 5000 * t.val + p.val; rw [e0]; omega
    | ⟨1, _⟩ => show win1_5.index t 1 * 64 + 1 * q.val = q.val; rw [e1]; omega
  show k1_pay1 (iblk1 V c 0 t) (iblk1 V c 1 t) (iblk1 V c 2 t) (iblk1 V c 3 t) (iblk1 V c 4 t) (ix2 p q)
    = Cert.Sage.output (F := Ideal) (V c main_v24) (V c main_v37) (V c main_arg6) (V c main_arg7) (V c main_arg8) (((cfg1.win 5).blk t).view.emb (ix2 p q))
  rw [hemb, Cert.KernelIdeal.Pay.outputBlock_apply, Cert.Sage.output_apply]
  simp only [rows1_0_apply V c t p _ ⟨5000 * t.val + p.val, hlt⟩ rfl, rows1_1_apply V c t p _ ⟨5000 * t.val + p.val, hlt⟩ rfl,
    weights1_2_apply V c t, weights1_3_apply V c t, bias1_apply V c t]

/-- An index of the result array is in point t's block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v38).slice (win1_5.rect t)).set ↔ _
  rw [View.set_slice_whole, Rect.mem_set_unit]
  exact Iff.rfl

/-- Every index of the result array is in some point's block: row r is in block r / 5000. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_5 _, ?_⟩
  obtain ⟨-, -, -, -, -, -, -, -, -, e0, e1⟩ := index_facts1 ⟨(i 0).val / 5000, by rw [hN]; omega⟩
  rw [mem_blk1]
  intro a
  match a with
  | ⟨0, _⟩ =>
    show win1_5.index _ (0 : Fin 2) * 5000 ≤ (i 0).val ∧ (i 0).val < win1_5.index _ (0 : Fin 2) * 5000 + 5000
    rw [e0]
    show (i 0).val / 5000 * 5000 ≤ (i 0).val ∧ (i 0).val < (i 0).val / 5000 * 5000 + 5000
    omega
  | ⟨1, _⟩ =>
    show win1_5.index _ (1 : Fin 2) * 64 ≤ (i 1).val ∧ (i 1).val < win1_5.index _ (1 : Fin 2) * 64 + 64
    rw [e1]
    omega

/-- The result array after region 1 is the output array of the arrays the region was entered with. -/
theorem array1 (c : Dev nD) :
    (dat1 V c).arrAt 5 cfg1.N
      = Cert.Sage.output (F := Ideal) (V c main_v24) (V c main_v37) (V c main_arg6) (V c main_arg7) (V c main_arg8) :=
  (dat1 V c).arrAt_eq_of_cover 5 _ (fun t _ => flushed1 V c t) (cover1)

end Cert.KernelIdeal.Blocks

end
-- ==== Proof.KernelRun.lean ====
/-
  The idealized kernel's run, read: its result array is the two-layer network of its nine arguments.

  The program is four stretches of host operations and two dense kernels: the in-degree normaliser; the gather of
  the node features along the edges, their sum at each destination and the scaling; the first dense kernel; the same
  aggregation of the hidden array; the second dense kernel. The buffer contents at each boundary between these
  segments are a fold from the launch memory: a host stretch rewrites the buffers its operations write and leaves the
  rest, a kernel leaves its result array at what its write-backs add up to and every other buffer as it found it.
  The run ends with the result buffer at the last boundary's contents and the arguments as launched; that contents
  is computed here, each host stretch by evaluating its operations' results, each kernel's result array as the dense
  layer of the contents its region is entered with. No argument array and no buffer a later stretch reads is written
  in between, so every intermediate is the corresponding piece of the network.
-/
import proofs.«161113_j16552803959273_1_alg».proof.Proof.Blocks

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

section Named

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result array named: every weakly fair execution terminates, nothing faulting, with the result
    buffer at the last boundary's contents and every argument as launched. -/
theorem run_named : θ_run defs (onTc (τ := τ) (main (F := F))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v38 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Named

/-! ## The contents at each boundary, computed -/

section Host

variable {F : FTy → Type} [FloatOps F]
variable (m : (ℓ : Loc nD τ sig) → Buf (Elt F) ℓ) (ρ : Dev nD → PrngReg)

/-- The first two host stretches write no argument. -/
theorem arg0_at2 (c : Dev nD) : W2 m ρ c (Proc.devRef .tc main_arg0) = m ((c : Thread nD τ).loc main_arg0) := by
  show after hostOps0_1 (after hostOps0 (W0 m ρ c)) (Proc.devRef .tc main_arg0) = _
  after_results_simp <;> rfl
theorem arg1_at2 (c : Dev nD) : W2 m ρ c (Proc.devRef .tc main_arg1) = m ((c : Thread nD τ).loc main_arg1) := by
  show after hostOps0_1 (after hostOps0 (W0 m ρ c)) (Proc.devRef .tc main_arg1) = _
  after_results_simp <;> rfl
theorem arg2_at2 (c : Dev nD) : W2 m ρ c (Proc.devRef .tc main_arg2) = m ((c : Thread nD τ).loc main_arg2) := by
  show after hostOps0_1 (after hostOps0 (W0 m ρ c)) (Proc.devRef .tc main_arg2) = _
  after_results_simp <;> rfl

/-- Nor does the third. -/
theorem arg0_at3 (c : Dev nD) : W3 m ρ c (Proc.devRef .tc main_arg0) = m ((c : Thread nD τ).loc main_arg0) := by
  show after hostOps0_2 (after hostOps0_1 (after hostOps0 (W0 m ρ c))) (Proc.devRef .tc main_arg0) = _
  after_results_simp <;> rfl
theorem arg3_at3 (c : Dev nD) : W3 m ρ c (Proc.devRef .tc main_arg3) = m ((c : Thread nD τ).loc main_arg3) := by
  show after hostOps0_2 (after hostOps0_1 (after hostOps0 (W0 m ρ c))) (Proc.devRef .tc main_arg3) = _
  after_results_simp <;> rfl
theorem arg4_at3 (c : Dev nD) : W3 m ρ c (Proc.devRef .tc main_arg4) = m ((c : Thread nD τ).loc main_arg4) := by
  show after hostOps0_2 (after hostOps0_1 (after hostOps0 (W0 m ρ c))) (Proc.devRef .tc main_arg4) = _
  after_results_simp <;> rfl
theorem arg5_at3 (c : Dev nD) : W3 m ρ c (Proc.devRef .tc main_arg5) = m ((c : Thread nD τ).loc main_arg5) := by
  show after hostOps0_2 (after hostOps0_1 (after hostOps0 (W0 m ρ c))) (Proc.devRef .tc main_arg5) = _
  after_results_simp <;> rfl

/-- After the first two host stretches the normaliser's buffer holds 1 / max (deg v) 1 where the in-degree is
    positive, else 0. -/
theorem inv_at2 (c : Dev nD) : W2 m ρ c (Proc.devRef .tc main_v10) = Cert.Sage.invDeg (m ((c : Thread nD τ).loc main_arg2)) := by
  show after hostOps0_1 (after hostOps0 (W0 m ρ c)) (Proc.devRef .tc main_v10) = _
  after_results_simp <;> rfl

/-- The third host stretch leaves it there. -/
theorem inv_at3 (c : Dev nD) : W3 m ρ c (Proc.devRef .tc main_v10) = Cert.Sage.invDeg (m ((c : Thread nD τ).loc main_arg2)) := by
  refine Eq.trans ?_ (inv_at2 m ρ c)
  show after hostOps0_2 (W2 m ρ c) (Proc.devRef .tc main_v10) = W2 m ρ c (Proc.devRef .tc main_v10)
  generalize W2 m ρ c = Wx
  after_results_simp <;> rfl

/-- The third host stretch writes the first kernel's second operand: the input features gathered along the edges,
    summed at each destination and scaled by the normaliser. -/
theorem agg_at3_raw (c : Dev nD) : W3 m ρ c (Proc.devRef .tc main_v23)
    = Cert.Sage.scaledAgg (W2 m ρ c (Proc.devRef .tc main_arg0)) (W2 m ρ c (Proc.devRef .tc main_arg1))
        (W2 m ρ c (Proc.devRef .tc main_arg2)) (W2 m ρ c (Proc.devRef .tc main_v10)) := by
  show after hostOps0_2 (W2 m ρ c) (Proc.devRef .tc main_v23) = _
  generalize W2 m ρ c = Wx
  after_results_simp <;> rfl

/-- Before the first kernel its second operand holds the mean over in-neighbours of the input features. -/
theorem agg_at3 (c : Dev nD) : W3 m ρ c (Proc.devRef .tc main_v23)
    = Cert.Sage.meanAgg (m ((c : Thread nD τ).loc main_arg0)) (m ((c : Thread nD τ).loc main_arg1)) (m ((c : Thread nD τ).loc main_arg2)) := by
  rw [agg_at3_raw, arg0_at2, arg1_at2, arg2_at2, inv_at2]
  rfl

/-- The host stretch between the kernels leaves the first kernel's result array in place … -/
theorem hidden_kept (c : Dev nD) : W5 m ρ c (Proc.devRef .tc main_v24) = W4 m ρ c (Proc.devRef .tc main_v24) := by
  show after hostOps1 (W4 m ρ c) (Proc.devRef .tc main_v24) = _
  after_results_simp <;> rfl

/-- … and writes the second kernel's second operand: that array aggregated along the same edges, scaled by the
    normaliser computed before the first kernel. -/
theorem agg_at5_raw (c : Dev nD) : W5 m ρ c (Proc.devRef .tc main_v37)
    = Cert.Sage.scaledAgg (W4 m ρ c (Proc.devRef .tc main_v24)) (W4 m ρ c (Proc.devRef .tc main_arg1))
        (W4 m ρ c (Proc.devRef .tc main_arg2)) (W4 m ρ c (Proc.devRef .tc main_v10)) := by
  show after hostOps1 (W4 m ρ c) (Proc.devRef .tc main_v37) = _
  after_results_simp <;> rfl

/-- The first kernel writes neither the edge arrays nor the normaliser. -/
theorem agg_at5_mid (c : Dev nD) : W5 m ρ c (Proc.devRef .tc main_v37)
    = Cert.Sage.meanAgg (W4 m ρ c (Proc.devRef .tc main_v24)) (m ((c : Thread nD τ).loc main_arg1)) (m ((c : Thread nD τ).loc main_arg2)) := by
  have e1 : W3 m ρ c (Proc.devRef .tc main_arg1) = m ((c : Thread nD τ).loc main_arg1) := by
    show after hostOps0_2 (after hostOps0_1 (after hostOps0 (W0 m ρ c))) (Proc.devRef .tc main_arg1) = _
    after_results_simp <;> rfl
  have e2 : W3 m ρ c (Proc.devRef .tc main_arg2) = m ((c : Thread nD τ).loc main_arg2) := by
    show after hostOps0_2 (after hostOps0_1 (after hostOps0 (W0 m ρ c))) (Proc.devRef .tc main_arg2) = _
    after_results_simp <;> rfl
  rw [agg_at5_raw, W4_of_ne m ρ c main_arg1 (by decide), e1, W4_of_ne m ρ c main_arg2 (by decide), e2,
    W4_of_ne m ρ c main_v10 (by decide), inv_at3]
  rfl

/-- No stretch and neither kernel writes the second layer's weights and bias before the second kernel reads them. -/
theorem arg6_at5 (c : Dev nD) : W5 m ρ c (Proc.devRef .tc main_arg6) = m ((c : Thread nD τ).loc main_arg6) := by
  refine Eq.trans (b := W4 m ρ c (Proc.devRef .tc main_arg6)) ?_ ((W4_of_ne m ρ c main_arg6 (by decide)).trans ?_)
  · show after hostOps1 (W4 m ρ c) (Proc.devRef .tc main_arg6) = _
    after_results_simp <;> rfl
  · show after hostOps0_2 (after hostOps0_1 (after hostOps0 (W0 m ρ c))) (Proc.devRef .tc main_arg6) = _
    after_results_simp <;> rfl
theorem arg7_at5 (c : Dev nD) : W5 m ρ c (Proc.devRef .tc main_arg7) = m ((c : Thread nD τ).loc main_arg7) := by
  refine Eq.trans (b := W4 m ρ c (Proc.devRef .tc main_arg7)) ?_ ((W4_of_ne m ρ c main_arg7 (by decide)).trans ?_)
  · show after hostOps1 (W4 m ρ c) (Proc.devRef .tc main_arg7) = _
    after_results_simp <;> rfl
  · show after hostOps0_2 (after hostOps0_1 (after hostOps0 (W0 m ρ c))) (Proc.devRef .tc main_arg7) = _
    after_results_simp <;> rfl
theorem arg8_at5 (c : Dev nD) : W5 m ρ c (Proc.devRef .tc main_arg8) = m ((c : Thread nD τ).loc main_arg8) := by
  refine Eq.trans (b := W4 m ρ c (Proc.devRef .tc main_arg8)) ?_ ((W4_of_ne m ρ c main_arg8 (by decide)).trans ?_)
  · show after hostOps1 (W4 m ρ c) (Proc.devRef .tc main_arg8) = _
    after_results_simp <;> rfl
  · show after hostOps0_2 (after hostOps0_1 (after hostOps0 (W0 m ρ c))) (Proc.devRef .tc main_arg8) = _
    after_results_simp <;> rfl

end Host

section Network

variable (m : (ℓ : Loc nD τ sig) → Buf (Elt Ideal) ℓ) (ρ : Dev nD → PrngReg)

/-- After the first kernel its result array is the hidden array of the arguments. -/
theorem hidden_at4 (c : Dev nD) : W4 m ρ c (Proc.devRef .tc main_v24)
    = Cert.Sage.hidden (m ((c : Thread nD τ).loc main_arg0)) (Cert.Sage.meanAgg (m ((c : Thread nD τ).loc main_arg0)) (m ((c : Thread nD τ).loc main_arg1)) (m ((c : Thread nD τ).loc main_arg2)))
        (m ((c : Thread nD τ).loc main_arg3)) (m ((c : Thread nD τ).loc main_arg4)) (m ((c : Thread nD τ).loc main_arg5)) := by
  refine (W4_arr m ρ c 5).trans ((Cert.KernelIdeal.Blocks.array0 (V3 m ρ) c).trans ?_)
  rw [show V3 m ρ c main_arg0 = m ((c : Thread nD τ).loc main_arg0) from arg0_at3 m ρ c,
    show V3 m ρ c main_v23 = Cert.Sage.meanAgg (m ((c : Thread nD τ).loc main_arg0)) (m ((c : Thread nD τ).loc main_arg1)) (m ((c : Thread nD τ).loc main_arg2)) from agg_at3 m ρ c,
    show V3 m ρ c main_arg3 = m ((c : Thread nD τ).loc main_arg3) from arg3_at3 m ρ c,
    show V3 m ρ c main_arg4 = m ((c : Thread nD τ).loc main_arg4) from arg4_at3 m ρ c,
    show V3 m ρ c main_arg5 = m ((c : Thread nD τ).loc main_arg5) from arg5_at3 m ρ c]

/-- The result array at the end of the run is the network of the nine arguments. -/
theorem result (c : Dev nD) : W6 m ρ c (Proc.devRef .tc main_v38)
    = Cert.Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 5).trans ((Cert.KernelIdeal.Blocks.array1 (V5 m ρ) c).trans ?_)
  rw [show V5 m ρ c main_v24 = _ from (hidden_kept m ρ c).trans (hidden_at4 m ρ c),
    show V5 m ρ c main_v37 = _ from (agg_at5_mid m ρ c).trans (by rw [hidden_at4]),
    show V5 m ρ c main_arg6 = m ((c : Thread nD τ).loc main_arg6) from arg6_at5 m ρ c,
    show V5 m ρ c main_arg7 = m ((c : Thread nD τ).loc main_arg7) from arg7_at5 m ρ c,
    show V5 m ρ c main_arg8 = m ((c : Thread nD τ).loc main_arg8) from arg8_at5 m ρ c]
  rfl

/-- The idealized kernel's run: it terminates, nothing faulting, with its result array the network of its arguments
    and every argument unchanged. -/
theorem run : θ_run defs (onTc (τ := τ) (main (F := Ideal))) ⟨m, fun _ => 0, ρ⟩ (fun r => ∀ c : Dev nD,
      r.2.mem ((c.tc : Thread nD τ).loc main_v38)
        = Cert.Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result m ρ c), (h c).2⟩) (run_named m ρ)

end Network

end Cert.KernelIdeal.Run

end
-- ==== Proof.lean ====
/-
  The certificate of a two-layer mean-aggregation graph network: a dense Pallas kernel per layer against plain jnp.

  Both programs compute, for 100000 nodes with 128 features and 1600000 edges, the in-degree normaliser
  inv v = 1 / max (deg v) 1 (0 where no edge arrives), and per layer

      h ↦ h · W_self + (inv ⊙ Σ_{e : dst e = v} h[src e]) · W_neigh + b,

  the first layer followed by max (·, 0). The gather, the scatter-add and the scaling are the same host operations in
  both programs, word for word. They differ only in the dense part of each layer: the reference takes two whole
  matrix products, a sum, the bias and the clamp on the host; the kernel runs over twenty blocks of 5000 rows, casts
  its operands to a narrower float format, multiplies into a zero accumulator, adds, adds the bias and clamps, and
  writes the block back. On the extended reals a change of float format is the identity and both matrix products are
  the plain sum over the contracted coordinate, so row 5000 t + p of the reference's dense layer and row p of what
  block t stores are the same expression of the same entries; the twenty blocks tile the rows. No law that needs
  finiteness is used — only that a sum may be re-indexed — so the precondition is never opened. The kernel's
  idealization rewrote nothing, so the conjunct relating it to the printed kernel is trivial.

  The pieces: Spec (the network as one function, its dense layers read at an index), LibDot (a matrix product at an
  index), Payload (what a block stores), Blocks (from blocks to the result array), KernelRun (the kernel's run ends at
  the network), RefRun and RefValue (the reference's run ends at the network).
-/
import proofs.«161113_j16552803959273_1_alg».proof.Defs
import proofs.«161113_j16552803959273_1_alg».proof.Proof.Gen.Kernel
import proofs.«161113_j16552803959273_1_alg».proof.Proof.Gen.Kernel.Skeleton
import proofs.«161113_j16552803959273_1_alg».proof.Proof.Gen.Kernel.Launch
import proofs.«161113_j16552803959273_1_alg».proof.Proof.Gen.Kernel.Points
import proofs.«161113_j16552803959273_1_alg».proof.Proof.Gen.Kernel.Frame
import proofs.«161113_j16552803959273_1_alg».proof.Proof.Gen.KernelIdeal
import proofs.«161113_j16552803959273_1_alg».proof.Proof.Gen.KernelIdeal.Skeleton
import proofs.«161113_j16552803959273_1_alg».proof.Proof.Gen.KernelIdeal.Launch
import proofs.«161113_j16552803959273_1_alg».proof.Proof.Gen.KernelIdeal.Points
import proofs.«161113_j16552803959273_1_alg».proof.Proof.Gen.KernelIdeal.Frame
import proofs.«161113_j16552803959273_1_alg».proof.Proof.Gen.ReferenceIdeal
import proofs.«161113_j16552803959273_1_alg».proof.Proof.Gen.Pre_finite_inputs
import proofs.«161113_j16552803959273_1_alg».proof.Proof.RefRun
import proofs.«161113_j16552803959273_1_alg».proof.Proof.RefValue
import proofs.«161113_j16552803959273_1_alg».proof.Proof.KernelRun
import Idealize.ShloMosaic.Adequacy
import Idealize.ShloMosaic.Init

noncomputable section

namespace Cert.Proof

open Idealize.ShloMosaic Idealize.SL.Sem

/-- Both idealized programs, run from memories that agree on the nine arguments, end with their result arrays at the
    network of those arguments, and leave the arguments as they were. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  rw [Cert.ReferenceIdeal.RefValue.result_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
